-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x512 .f32) (main_arg5 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x256x512 .f32) (main_arg1 : FVec F S4x64x512 .f32) (main_arg2 : FVec F S512x1024 .f32) (main_arg3 : FVec F S512 .f32) (main_arg4 : FVec F S1024x512 .f32) (main_arg5 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S4x256x64x1024 : Shape := ⟨4, ![4, 256, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S1x1x512 : Shape := ⟨3, ![1, 1, 512]⟩
abbrev S1024x1024 : Shape := ⟨2, ![1024, 1024]⟩
abbrev S1x1024 : Shape := ⟨2, ![1, 1024]⟩
abbrev S1024x1 : Shape := ⟨2, ![1024, 1]⟩
abbrev S16x64x1024 : Shape := ⟨3, ![16, 64, 1024]⟩

abbrev nBuf : Space → Nat
  | .hbm => 9
  | .vmem => 11
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x512, .f32⟩
  | .hbm, ⟨7, _⟩ => ⟨S512x512, .f32⟩
  | .hbm, ⟨8, _⟩ => ⟨S4x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S512x512, .f32⟩
  | .local _ .vmem, ⟨5, _⟩ => ⟨S512x512, .f32⟩
  | .local _ .vmem, ⟨6, _⟩ => ⟨S512, .f32⟩
  | .local _ .vmem, ⟨7, _⟩ => ⟨S1024x512, .f32⟩
  | .local _ .vmem, ⟨8, _⟩ => ⟨S1024, .f32⟩
  | .local _ .vmem, ⟨9, _⟩ => ⟨S1x16x64x1024, .f32⟩
  | .local _ .vmem, ⟨10, _⟩ => ⟨S1x16x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S512x1024_S512x512_0_0 : S512x1024.Slices ![0, 0] S512x512
  slices_S512x1024_S512x512_0_512 : S512x1024.Slices ![0, 512] S512x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S512_S512_0 : ∀ a, (![0] : Fin 1 → Nat) a + S512.size a ≤ S512.size a
  h_S512 : 0 < S512.numel
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  shapeCasts_S512_S1x1x512 : S512.ShapeCasts S1x1x512
  broadcasts_S1x1x512_S16x64x512 : S1x1x512.Broadcasts S16x64x512
  shapeCasts_S16x64x512_S1024x512 : S16x64x512.ShapeCasts S1024x512
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x512_S16x512_1_0_0_1_n_n_wf : DotDims.WF S16x512 S512x512 S16x512 [1] [0] [0] [1] [] []
  dot_S64x512_S512x512_S64x512_1_0_0_1_n_n_wf : DotDims.WF S64x512 S512x512 S64x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .f32 = 32 ∨ (Rect.block (s := S4x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .f32 = 32 ∨ (Rect.block (s := S4x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .f32 = 32 ∨ (Rect.block (s := S1024x512) S1024x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x1024.size a ≤ S4x256x64x1024.size a
  hwx0_7 : ∀ i : grid0.Coords, EltTy.bits .f32 = 32 ∨ (Rect.block (s := S4x256x64x1024) S1x16x64x1024.size (cc0_transform_7 i) (hinb0_7 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x1024 : Shape := ⟨2, ![512, 1024]⟩
abbrev S512 : Shape := ⟨1, ![512]⟩
abbrev S1024x512 : Shape := ⟨2, ![1024, 512]⟩
abbrev S1024 : Shape := ⟨1, ![1024]⟩
abbrev S512x512 : Shape := ⟨2, ![512, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S1x1x1x512 : Shape := ⟨4, ![1, 1, 1, 512]⟩
abbrev S4x256x64x1024 : Shape := ⟨4, ![4, 256, 64, 1024]⟩
abbrev S1x1x1x1024 : Shape := ⟨4, ![1, 1, 1, 1024]⟩
abbrev S_ : Shape := ⟨0, ![]⟩
abbrev S4x256x64 : Shape := ⟨3, ![4, 256, 64]⟩
abbrev S4x256x64x1 : Shape := ⟨4, ![4, 256, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x1024, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x512, .f32⟩
  | .hbm, ⟨7, _⟩ => ⟨S4x256x512, .f32⟩
  | .hbm, ⟨8, _⟩ => ⟨S512x512, .f32⟩
  | .hbm, ⟨9, _⟩ => ⟨S4x64x512, .f32⟩
  | .hbm, ⟨10, _⟩ => ⟨S4x256x1x512, .f32⟩
  | .hbm, ⟨11, _⟩ => ⟨S4x1x64x512, .f32⟩
  | .hbm, ⟨12, _⟩ => ⟨S4x256x64x512, .f32⟩
  | .hbm, ⟨13, _⟩ => ⟨S4x256x64x512, .f32⟩
  | .hbm, ⟨14, _⟩ => ⟨S4x256x64x512, .f32⟩
  | .hbm, ⟨15, _⟩ => ⟨S1x1x1x512, .f32⟩
  | .hbm, ⟨16, _⟩ => ⟨S4x256x64x512, .f32⟩
  | .hbm, ⟨17, _⟩ => ⟨S4x256x64x512, .f32⟩
  | .hbm, ⟨18, _⟩ => ⟨S4x256x64x512, .f32⟩
  | .hbm, ⟨19, _⟩ => ⟨S4x256x64x1024, .f32⟩
  | .hbm, ⟨20, _⟩ => ⟨S1x1x1x1024, .f32⟩
  | .hbm, ⟨21, _⟩ => ⟨S4x256x64x1024, .f32⟩
  | .hbm, ⟨22, _⟩ => ⟨S4x256x64x1024, .f32⟩
  | .hbm, ⟨23, _⟩ => ⟨S_, .f32⟩
  | .hbm, ⟨24, _⟩ => ⟨S4x256x64, .f32⟩
  | .hbm, ⟨25, _⟩ => ⟨S_, .f32⟩
  | .hbm, ⟨26, _⟩ => ⟨S4x256x64, .f32⟩
  | .hbm, ⟨27, _⟩ => ⟨S4x256x64, .f32⟩
  | .hbm, ⟨28, _⟩ => ⟨S4x256x64x1, .f32⟩
  | .hbm, ⟨29, _⟩ => ⟨S4x256x64x1024, .f32⟩
  | .hbm, ⟨30, _⟩ => ⟨S4x256x64x1024, .f32⟩
  | .hbm, ⟨31, _⟩ => ⟨S4x256x64x1024, .f32⟩
  | .hbm, ⟨32, _⟩ => ⟨S_, .f32⟩
  | .hbm, ⟨33, _⟩ => ⟨S4x256x64, .f32⟩
  | .hbm, ⟨34, _⟩ => ⟨S4x256x64x1, .f32⟩
  | .hbm, ⟨35, _⟩ => ⟨S4x256x64x1, .f32⟩
  | .hbm, ⟨36, _⟩ => ⟨S4x256x64x1024, .f32⟩
  | .hbm, ⟨37, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v17 : Ref sig .tc := ⟨.hbm, 37, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  reducesTo_S4x256x64x1024_S4x256x64_d3 : S4x256x64x1024.ReducesTo [3] S4x256x64
  h_S_ : 0 < S_.numel
  bcast_S_S4x256x64 : S_.BroadcastsInDim S4x256x64 (![] : Fin 0 → Fin S4x256x64.rank)
  bcast_S4x256x64_S4x256x64x1_0_1_2 : S4x256x64.BroadcastsInDim S4x256x64x1 (![0, 1, 2] : Fin 3 → Fin S4x256x64x1.rank)
  bcast_S4x256x64x1_S4x256x64x1024_0_1_2_3 : S4x256x64x1.BroadcastsInDim S4x256x64x1024 (![0, 1, 2, 3] : Fin 4 → Fin S4x256x64x1024.rank)
  dot_S4x256x512_S512x512_S4x256x512_2_1_01_0_n_n_wf : DotDims.WF S4x256x512 S512x512 S4x256x512 [2] [1] [0, 1] [0] [] []
  dot_S4x64x512_S512x512_S4x64x512_2_1_01_0_n_n_wf : DotDims.WF S4x64x512 S512x512 S4x64x512 [2] [1] [0, 1] [0] [] []
  dot_S4x256x64x512_S1024x512_S4x256x64x1024_3_1_012_0_n_n_wf : DotDims.WF S4x256x64x512 S1024x512 S4x256x64x1024 [3] [1] [0, 1, 2] [0] [] []

variable [Facts₀]

def dot_S4x256x512_S512x512_S4x256x512_2_1_01_0_n_n : DotDims S4x256x512 S512x512 S4x256x512 where
  lhsContracting := [2]
  rhsContracting := [1]
  lhsNonContracting := [0, 1]
  rhsNonContracting := [0]
  lhsBatch := []
  rhsBatch := []
  wf := dot_S4x256x512_S512x512_S4x256x512_2_1_01_0_n_n_wf
def dot_S4x64x512_S512x512_S4x64x512_2_1_01_0_n_n : DotDims S4x64x512 S512x512 S4x64x512 where
  lhsContracting := [2]
  rhsContracting := [1]
  lhsNonContracting := [0, 1]
  rhsNonContracting := [0]
  lhsBatch := []
  rhsBatch := []
  wf := dot_S4x64x512_S512x512_S4x64x512_2_1_01_0_n_n_wf
def dot_S4x256x64x512_S1024x512_S4x256x64x1024_3_1_012_0_n_n : DotDims S4x256x64x512 S1024x512 S4x256x64x1024 where
  lhsContracting := [3]
  rhsContracting := [1]
  lhsNonContracting := [0, 1, 2]
  rhsNonContracting := [0]
  lhsBatch := []
  rhsBatch := []
  wf := dot_S4x256x64x512_S1024x512_S4x256x64x1024_3_1_012_0_n_n_wf

class Facts : Prop extends Facts₀ where

variable [Facts]
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«142661_j73280732004784_1_alg».proof.Proof.LibKeepdims
import proofs.«142661_j73280732004784_1_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.JointRow.lean ====
/-
  One row of the joint network's output, as a function of what it depends on.

  For a frame with encoder features e ∈ ℝ̄^512 and a token with decoder features d ∈ ℝ̄^512 (entries are extended reals),
  with first-layer weights split into the half w1e that meets the encoder features and the half w1d that meets the
  decoder features, bias b1, second-layer weights w2 and bias b2:
      hidden_k = tanh ((Σ_j e_j · w1e_{k j} + Σ_j d_j · w1d_{k j}) + b1_k)          k < 512
      logit_c  = Σ_k hidden_k · w2_{c k} + b2_c                                        c < 1024
  and the row of log-probabilities is the log-softmax of the logits, computed the stable way: with M the running
  maximum of the logits from -∞,
      below_c = logit_c - M,      out_c = below_c - log (Σ_{c'} exp below_{c'}).
  Both programs compute exactly this, entry by entry; nothing here needs the entries to be finite, because the two
  programs perform the same operations in the same grouping and differ only in the order of commutative folds.
-/
import Idealize.ShloMosaic.PureOps.Ideal
import proofs.«142661_j73280732004784_1_alg».proof.Proof.LibMaxReduce

noncomputable section

namespace Cert.JointRow

open Idealize.ShloMosaic Cert.LibMaxReduce

/-- The logits of one (frame, token) pair. -/
def logit (e d : Fin 512 → EReal) (w1e w1d : Fin 512 → Fin 512 → EReal) (b1 : Fin 512 → EReal)
    (w2 : Fin 1024 → Fin 512 → EReal) (b2 : Fin 1024 → EReal) (c : Fin 1024) : EReal :=
  (∑ k : Fin 512, Ideal.tanh (((∑ j : Fin 512, e j * w1e k j) + ∑ j : Fin 512, d j * w1d k j) + b1 k) * w2 c k) + b2 c

/-- A row's entries measured below the row's running maximum from -∞. -/
def below (L : Fin 1024 → EReal) (c : Fin 1024) : EReal :=
  L c - foldMax (Ideal.ofBits .f32 0xFF800000#32) L

/-- The stable log-softmax of a row. -/
def logSoftmax (L : Fin 1024 → EReal) (c : Fin 1024) : EReal :=
  below L c - Ideal.log (∑ c' : Fin 1024, Ideal.exp (below L c'))

end Cert.JointRow

end
-- ==== Proof.KernelBlock.lean ====
/-
  What the kernel's body computes from the blocks it loads, read entry by entry.

  At a grid point the body holds a block of 16 frames' encoder features (P0), the batch element's 64 tokens' decoder
  features (P1), the two halves of the first-layer weights (P2, P3), the first bias (P4), the second-layer weights (P5)
  and the second bias (P6). It forms the two projections with the matrix unit (the weights transposed first, so each
  product contracts the feature axis), adds them across a [16, 64, 512] box with the bias, applies tanh, folds the box to
  the 1024 rows (frame, token) ↦ frame · 64 + token, multiplies by the transposed second-layer weights, adds the second
  bias, and subtracts from every row its running maximum. Read at row (p, n) and column c this is the row function
  `below (logit …)` of `JointRow` at the rows of the blocks it depends on. A change of float format is the identity on
  the extended reals, so the roundings to bf16 on the way into the matrix unit do not show.
-/
import proofs.«142661_j73280732004784_1_alg».proof.Proof.Gen.KernelIdeal.Skeleton
import Idealize.ShloMosaic.Lib.ValueLayout
import Idealize.ShloMosaic.Lib.Pipeline.Value
import Idealize.ShloMosaic.Lib.ValueIdx
import proofs.«142661_j73280732004784_1_alg».proof.Proof.LibPlainMatmul
import proofs.«142661_j73280732004784_1_alg».proof.Proof.LibRank3
import proofs.«142661_j73280732004784_1_alg».proof.Proof.LibKeepdims
import proofs.«142661_j73280732004784_1_alg».proof.Proof.LibSoftmaxBlock
import proofs.«142661_j73280732004784_1_alg».proof.Proof.JointRow

noncomputable section

namespace Cert.KernelIdeal.JointBlock

open Cert.KernelIdeal Cert.KernelIdeal.Gen Idealize.ShloMosaic Idealize.ShloMosaic.ValueIdx
open Cert.LibMaxReduce Cert.LibRank3 Cert.JointRow

variable (P0 : Vec Ideal S1x16x512 .f32) (P1 : Vec Ideal S1x64x512 .f32) (P2 P3 : Vec Ideal S512x512 .f32)
  (P4 : Vec Ideal S512 .f32) (P5 : Vec Ideal S1024x512 .f32) (P6 : Vec Ideal S1024 .f32)

/-- The row of the folded [1024, ·] matrices that holds frame `p` of the block and token `n`: p · 64 + n. -/
abbrev row (p : Fin 16) (n : Fin 64) : Fin 1024 := flat 1024 (by norm_num) p n

/-- The block's frames projected: [16, 512] × (first half of the first-layer weights)ᵀ. -/
def projE : FVec Ideal S16x512 .f32 :=
  matmul dot_S16x512_S512x512_S16x512_1_0_0_1_n_n none
    (truncf .bf16 (shapeCast S16x512 P0 shapeCasts_S1x16x512_S16x512 : FVec Ideal S16x512 .f32) bitsLt_bf16_f32)
    (transpose S512x512 [1, 0] (truncf .bf16 (shapeCast S512x512 P2 shapeCasts_S512x512_S512x512 : FVec Ideal S512x512 .f32) bitsLt_bf16_f32) transposes_S512x512_p1_0_S512x512)
    (constant S16x512 .f32 0x00000000#32)

/-- The tokens projected: [64, 512] × (second half of the first-layer weights)ᵀ. -/
def projD : FVec Ideal S64x512 .f32 :=
  matmul dot_S64x512_S512x512_S64x512_1_0_0_1_n_n none
    (truncf .bf16 (shapeCast S64x512 P1 shapeCasts_S1x64x512_S64x512 : FVec Ideal S64x512 .f32) bitsLt_bf16_f32)
    (transpose S512x512 [1, 0] (truncf .bf16 (shapeCast S512x512 P3 shapeCasts_S512x512_S512x512 : FVec Ideal S512x512 .f32) bitsLt_bf16_f32) transposes_S512x512_p1_0_S512x512)
    (constant S64x512 .f32 0x00000000#32)

/-- The hidden layer over the [16, 64, 512] box of (frame, token, unit). -/
def hidden : FVec Ideal S16x64x512 .f32 :=
  tanh (addf (addf (broadcastTo S16x64x512 (shapeCast S16x1x512 (projE P0 P2) shapeCasts_S16x512_S16x1x512) broadcasts_S16x1x512_S16x64x512)
                   (broadcastTo S16x64x512 (shapeCast S1x64x512 (projD P1 P3) shapeCasts_S64x512_S1x64x512) broadcasts_S1x64x512_S16x64x512))
             (broadcastTo S16x64x512 (shapeCast S1x1x512 P4 shapeCasts_S512_S1x1x512 : FVec Ideal S1x1x512 .f32) broadcasts_S1x1x512_S16x64x512))

/-- The logits of the 1024 (frame, token) rows. -/
def logits : FVec Ideal S1024x1024 .f32 :=
  addf (matmul dot_S1024x512_S512x1024_S1024x1024_1_0_0_1_n_n none
          (shapeCast S1024x512 (truncf .bf16 (hidden P0 P1 P2 P3 P4) bitsLt_bf16_f32) shapeCasts_S16x64x512_S1024x512)
          (transpose S512x1024 [1, 0] (truncf .bf16 (P5 : FVec Ideal S1024x512 .f32) bitsLt_bf16_f32) transposes_S1024x512_p1_0_S512x1024)
          (constant S1024x1024 .f32 0x00000000#32))
       (broadcastTo S1024x1024 (shapeCast S1x1024 P6 shapeCasts_S1024_S1x1024 : FVec Ideal S1x1024 .f32) broadcasts_S1x1024_S1024x1024)

/-- The logits below their row maxima. -/
def shifted : FVec Ideal S1024x1024 .f32 :=
  subf (logits P0 P1 P2 P3 P4 P5 P6)
    (broadcastTo S1024x1024 (shapeCast S1024x1 (multiReduction .maximumf [1] S1024 (logits P0 P1 P2 P3 P4 P5 P6) 0xFF800000#32 reduces_S1024x1024_S1024 (.inl rfl) rfl) shapeCasts_S1024_S1024x1) broadcasts_S1024x1_S1024x1024)

/-- The body's first payload is that composition. -/
theorem pay2_eq : k0_pay2 P0 P1 P2 P3 P4 P5 P6 = shifted P0 P1 P2 P3 P4 P5 P6 := rfl

/-- Frame `p`'s projection, unit `k`: Σ_j P0(p, j) · P2(k, j). -/
theorem projE_apply (p : Fin 16) (k : Fin 512) :
    projE P0 P2 (ix2 p k) = ∑ j : Fin 512, P0 (ix3 (0 : Fin 1) p j) * P2 (ix2 k j) := by
  refine (matmul_plain_zero_apply 16 512 512 none _ _ p k).trans ?_
  refine Finset.sum_congr rfl fun j _ => congrArg₂ (· * ·) ?_ ?_
  · exact shapeCast_1ab_ab_apply P0 _ p j
  · exact (transpose_ix2_apply _ _ j k).trans (congrFun (shapeCast_self P2 _) (ix2 k j))

/-- Token `n`'s projection, unit `k`: Σ_j P1(n, j) · P3(k, j). -/
theorem projD_apply (n : Fin 64) (k : Fin 512) :
    projD P1 P3 (ix2 n k) = ∑ j : Fin 512, P1 (ix3 (0 : Fin 1) n j) * P3 (ix2 k j) := by
  refine (matmul_plain_zero_apply 64 512 512 none _ _ n k).trans ?_
  refine Finset.sum_congr rfl fun j _ => congrArg₂ (· * ·) ?_ ?_
  · exact shapeCast_1ab_ab_apply P1 _ n j
  · exact (transpose_ix2_apply _ _ j k).trans (congrFun (shapeCast_self P3 _) (ix2 k j))

/-- The hidden unit `k` of (frame `p`, token `n`). -/
theorem hidden_apply (p : Fin 16) (n : Fin 64) (k : Fin 512) :
    hidden P0 P1 P2 P3 P4 (ix3 p n k)
      = Ideal.tanh (((∑ j : Fin 512, P0 (ix3 (0 : Fin 1) p j) * P2 (ix2 k j)) + ∑ j : Fin 512, P1 (ix3 (0 : Fin 1) n j) * P3 (ix2 k j)) + P4 (ix1 k)) := by
  refine congrArg Ideal.tanh (congrArg₂ (· + ·) (congrArg₂ (· + ·) ?_ ?_) ?_)
  · exact ((bcast_a1c_abc _ _ p n k (0 : Fin 1)).trans (cast_ac_a1c _ _ p (0 : Fin 1) k)).trans (projE_apply P0 P2 p k)
  · exact ((bcast_1bc_abc _ _ p n k (0 : Fin 1)).trans (shapeCast_ab_1ab_apply _ _ (0 : Fin 1) n k)).trans (projD_apply P1 P3 n k)
  · exact (bcast_11c_abc _ _ p n k (0 : Fin 1) (0 : Fin 1)).trans (cast_c_11c _ _ (0 : Fin 1) (0 : Fin 1) k)

/-- The logit of class `c` in row (p, n). -/
theorem logits_apply (p : Fin 16) (n : Fin 64) (c : Fin 1024) :
    logits P0 P1 P2 P3 P4 P5 P6 (ix2 (row p n) c)
      = logit (fun j => P0 (ix3 (0 : Fin 1) p j)) (fun j => P1 (ix3 (0 : Fin 1) n j)) (fun k j => P2 (ix2 k j)) (fun k j => P3 (ix2 k j))
          (fun k => P4 (ix1 k)) (fun c k => P5 (ix2 c k)) (fun c => P6 (ix1 c)) c := by
  unfold logit
  refine congrArg₂ (· + ·) ?_ ?_
  · refine (matmul_plain_zero_apply 1024 512 1024 none _ _ (row p n) c).trans ?_
    refine Finset.sum_congr rfl fun k _ => congrArg₂ (· * ·) ?_ ?_
    · exact (cast_abc_nc 1024 (by norm_num) _ _ p n k).trans (hidden_apply P0 P1 P2 P3 P4 p n k)
    · exact transpose_ix2_apply _ _ k c
  · exact (broadcastTo_1b_ab_apply _ _ (row p n) c).trans (shapeCast_a_1a_apply _ _ (0 : Fin 1) c)

/-- The body's first payload at row (p, n), class `c`: the logit below the row's maximum. -/
theorem shifted_apply (p : Fin 16) (n : Fin 64) (c : Fin 1024) :
    shifted P0 P1 P2 P3 P4 P5 P6 (ix2 (row p n) c)
      = below (logit (fun j => P0 (ix3 (0 : Fin 1) p j)) (fun j => P1 (ix3 (0 : Fin 1) n j)) (fun k j => P2 (ix2 k j)) (fun k j => P3 (ix2 k j))
          (fun k => P4 (ix1 k)) (fun c k => P5 (ix2 c k)) (fun c => P6 (ix1 c))) c := by
  unfold below
  refine congrArg₂ (· - ·) (logits_apply P0 P1 P2 P3 P4 P5 P6 p n c) ?_
  refine (Cert.LibSoftmaxBlock.rowMax_spread_apply (logits P0 P1 P2 P3 P4 P5 P6) 0xFF800000#32 reduces_S1024x1024_S1024 (.inl rfl) rfl
    shapeCasts_S1024_S1024x1 broadcasts_S1024x1_S1024x1024 (row p n) c).trans ?_
  exact congrArg (foldMax (Ideal.ofBits .f32 0xFF800000#32)) (funext fun c' => logits_apply P0 P1 P2 P3 P4 P5 P6 p n c')

end Cert.KernelIdeal.JointBlock

end
-- ==== Proof.JointSpec.lean ====
/-
  The joint network's whole output as one function of the six argument arrays, index by index.

  With encoder features x0 [4, 256, 512], decoder features x1 [4, 64, 512], first-layer weights x2 [512, 1024] (row k
  holds the 512 weights that meet the encoder features, then the 512 that meet the decoder features), first bias x3,
  second-layer weights x4 [1024, 512] and second bias x5, the entry (b, m, n, c) of the result is the row function of
  `JointRow` at frame (b, m)'s encoder features and token (b, n)'s decoder features.
-/
import Idealize.ShloMosaic.Lib.ValueIdx
import proofs.«142661_j73280732004784_1_alg».proof.Proof.JointRow

noncomputable section

namespace Cert.JointSpec

open Idealize.ShloMosaic Idealize.ShloMosaic.ValueIdx Cert.JointRow

/-- Column j of the first half of a weight row. -/
abbrev lo (j : Fin 512) : Fin 1024 := ⟨j.val, by omega⟩
/-- Column j of the second half of a weight row. -/
abbrev hi (j : Fin 512) : Fin 1024 := ⟨512 + j.val, by omega⟩

/-- The row of log-probabilities of batch element b, frame m, token n. -/
def Gc (x0 : (⟨3, ![4, 256, 512]⟩ : Shape).Idx → EReal) (x1 : (⟨3, ![4, 64, 512]⟩ : Shape).Idx → EReal)
    (x2 : (⟨2, ![512, 1024]⟩ : Shape).Idx → EReal) (x3 : (⟨1, ![512]⟩ : Shape).Idx → EReal)
    (x4 : (⟨2, ![1024, 512]⟩ : Shape).Idx → EReal) (x5 : (⟨1, ![1024]⟩ : Shape).Idx → EReal)
    (b : Fin 4) (m : Fin 256) (n : Fin 64) : Fin 1024 → EReal :=
  logSoftmax (logit (fun j => x0 (ix3 b m j)) (fun j => x1 (ix3 b n j)) (fun k j => x2 (ix2 k (lo j))) (fun k j => x2 (ix2 k (hi j)))
    (fun k => x3 (ix1 k)) (fun c k => x4 (ix2 c k)) (fun c => x5 (ix1 c)))

/-- The whole result, index by index. -/
def G (x0 : (⟨3, ![4, 256, 512]⟩ : Shape).Idx → EReal) (x1 : (⟨3, ![4, 64, 512]⟩ : Shape).Idx → EReal)
    (x2 : (⟨2, ![512, 1024]⟩ : Shape).Idx → EReal) (x3 : (⟨1, ![512]⟩ : Shape).Idx → EReal)
    (x4 : (⟨2, ![1024, 512]⟩ : Shape).Idx → EReal) (x5 : (⟨1, ![1024]⟩ : Shape).Idx → EReal) :
    (⟨4, ![4, 256, 64, 1024]⟩ : Shape).Idx → EReal :=
  fun i => Gc x0 x1 x2 x3 x4 x5 (i 0) (i 1) (i 2) (i 3)

theorem G_ix4 (x0 : (⟨3, ![4, 256, 512]⟩ : Shape).Idx → EReal) (x1 : (⟨3, ![4, 64, 512]⟩ : Shape).Idx → EReal)
    (x2 : (⟨2, ![512, 1024]⟩ : Shape).Idx → EReal) (x3 : (⟨1, ![512]⟩ : Shape).Idx → EReal)
    (x4 : (⟨2, ![1024, 512]⟩ : Shape).Idx → EReal) (x5 : (⟨1, ![1024]⟩ : Shape).Idx → EReal)
    (b : Fin 4) (m : Fin 256) (n : Fin 64) (c : Fin 1024) :
    G x0 x1 x2 x3 x4 x5 (ix4 b m n c) = Gc x0 x1 x2 x3 x4 x5 b m n c := rfl

end Cert.JointSpec

end
-- ==== Proof.KernelTile.lean ====
/-
  From the kernel's blocks to its whole result array.

  The grid has 4 × 16 points; point (b, mi) loads the 16 frames mi·16 … mi·16 + 15 of batch element b, all 64 tokens of
  b, and the whole weights and biases (the two halves of the first-layer weights arrive as two arrays sliced from the
  one argument before the launch), and writes the [1, 16, 64, 1024] block (b, mi) of the result. What it writes at
  (frame p of the block, token n, class c) is the row function of `JointRow` at those frames' and tokens' features: the
  entry (b, mi·16 + p, n, c) of `JointSpec.G` of the arguments. The 64 blocks tile the result array, so the array ends
  holding `G`.
-/
import proofs.«142661_j73280732004784_1_alg».proof.Proof.KernelValue
import proofs.«142661_j73280732004784_1_alg».proof.Proof.KernelBlock
import proofs.«142661_j73280732004784_1_alg».proof.Proof.JointSpec
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.JointTile

open Cert.KernelIdeal Cert.KernelIdeal.Gen Cert.KernelIdeal.ValueP Cert.KernelIdeal.JointBlock
open Idealize.ShloMosaic.ValueIdx Idealize.ShloMosaic.StableHlo Cert.LibRank3 Cert.JointRow Cert.JointSpec

variable (m : (ℓ : Loc nD τ sig) → Buf (Elt Ideal) ℓ) (ρ : Dev nD → PrngReg)

/-! ## A block of the result, entry by entry -/

/-- What the body leaves in the result's block, at (frame p of the block, token n, class c): the log-softmax row of the
    logits of that frame and token. -/
theorem block_apply (P0 : Vec Ideal S1x16x512 .f32) (P1 : Vec Ideal S1x64x512 .f32) (P2 P3 : Vec Ideal S512x512 .f32)
    (P4 : Vec Ideal S512 .f32) (P5 : Vec Ideal S1024x512 .f32) (P6 : Vec Ideal S1024 .f32)
    (u : Fin 1) (p : Fin 16) (n : Fin 64) (c : Fin 1024) :
    E7 P0 P1 P2 P3 P4 P5 P6 (ix4 u p n c)
      = logSoftmax (logit (fun j => P0 (ix3 (0 : Fin 1) p j)) (fun j => P1 (ix3 (0 : Fin 1) n j)) (fun k j => P2 (ix2 k j)) (fun k j => P3 (ix2 k j))
          (fun k => P4 (ix1 k)) (fun c k => P5 (ix2 c k)) (fun c => P6 (ix1 c))) c := by
  have e0 : ix7_0 (ix4 u p n c) = ix2 (row p n) c := by
    funext a; apply Fin.ext
    match a with
    | ⟨0, _⟩ => rfl
    | ⟨1, _⟩ => rfl
  have e1 : ix7_1 (ix4 u p n c) = ix1 (row p n) := by
    funext a; apply Fin.ext
    match a with
    | ⟨0, _⟩ => rfl
  show (k0_pay2 P0 P1 P2 P3 P4 P5 P6 (ix7_0 (ix4 u p n c)))
      - Ideal.log (multiReduction .add [1] S1024 (exp (k0_pay2 P0 P1 P2 P3 P4 P5 P6)) 0x00000000#32 reduces_S1024x1024_S1024 (.inl rfl) rfl (ix7_1 (ix4 u p n c))) = _
  rw [e0, e1, pay2_eq]
  unfold logSoftmax
  refine congrArg₂ (· - ·) (shifted_apply P0 P1 P2 P3 P4 P5 P6 p n c) (congrArg Ideal.log ?_)
  refine (Cert.LibKeepdims.multiReduction_add_lastAxis_apply _ 0x00000000#32 reduces_S1024x1024_S1024 (.inl rfl) rfl (row p n)).trans ?_
  exact Finset.sum_congr rfl fun c' _ => congrArg Ideal.exp (shifted_apply P0 P1 P2 P3 P4 P5 P6 p n c')

/-- Frame p of the block of 16 frames number mi. -/
abbrev frame (mi : Fin 16) (p : Fin 16) : Fin 256 := ⟨mi.val * 16 + p.val, by omega⟩

/-- A block whose loads are the rows of the arguments that grid point (b, mi) stages holds block (b, mi) of `G`. -/
theorem tile_eq (Q0 : Vec Ideal S1x16x512 .f32) (Q1 : Vec Ideal S1x64x512 .f32) (Q2 Q3 : Vec Ideal S512x512 .f32)
    (Q4 : Vec Ideal S512 .f32) (Q5 : Vec Ideal S1024x512 .f32) (Q6 : Vec Ideal S1024 .f32)
    (X0 : S4x256x512.Idx → EReal) (X1 : S4x64x512.Idx → EReal) (X2 : S512x1024.Idx → EReal) (X3 : S512.Idx → EReal)
    (X4 : S1024x512.Idx → EReal) (X5 : S1024.Idx → EReal) (b : Fin 4) (mi : Fin 16)
    (h0 : ∀ (p : Fin 16) (j : Fin 512), Q0 (ix3 (0 : Fin 1) p j) = X0 (ix3 b (frame mi p) j))
    (h1 : ∀ (n : Fin 64) (j : Fin 512), Q1 (ix3 (0 : Fin 1) n j) = X1 (ix3 b n j))
    (h2 : ∀ k j : Fin 512, Q2 (ix2 k j) = X2 (ix2 k (lo j)))
    (h3 : ∀ k j : Fin 512, Q3 (ix2 k j) = X2 (ix2 k (hi j)))
    (h4 : ∀ k : Fin 512, Q4 (ix1 k) = X3 (ix1 k))
    (h5 : ∀ (c : Fin 1024) (k : Fin 512), Q5 (ix2 c k) = X4 (ix2 c k))
    (h6 : ∀ c : Fin 1024, Q6 (ix1 c) = X5 (ix1 c))
    (u : Fin 1) (p : Fin 16) (n : Fin 64) (c : Fin 1024) :
    E7 Q0 Q1 Q2 Q3 Q4 Q5 Q6 (ix4 u p n c) = G X0 X1 X2 X3 X4 X5 (ix4 b (frame mi p) n c) := by
  rw [block_apply, G_ix4]
  unfold Gc
  simp only [h0, h1, h2, h3, h4, h5, h6]

end Cert.KernelIdeal.JointTile

end
-- ==== Proof.KernelArray.lean ====
/-
  The kernel's result array is the joint network's function of the arguments.

  Point t of the 4 × 16 grid writes block (b, mi) of the result, where (b, mi) is the block index the result's index map
  gives at t; the input windows move with it — the encoder features at (b, mi, 0), the decoder features at (b, 0, 0),
  every weight and bias at its one block — as decided once over the 64 points. So each block the body loads is the
  rows of the arguments that `JointTile.tile_eq` asks for (the two weight halves through the slices of the one argument
  made before the launch), what the point writes back is block (b, mi) of `G`, and since the blocks (b, mi) tile the
  [4, 256, 64, 1024] array — the point for frame m is mi = m / 16 — the array ends holding `G`.
-/
import proofs.«142661_j73280732004784_1_alg».proof.Proof.KernelTile
import proofs.«142661_j73280732004784_1_alg».proof.Proof.Gen.KernelIdeal.Points
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.JointArray

open Cert.KernelIdeal Cert.KernelIdeal.Gen Cert.KernelIdeal.ValueP Cert.KernelIdeal.JointTile
open Idealize.ShloMosaic.ValueIdx Idealize.ShloMosaic.StableHlo Cert.JointSpec

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 64 grid points: the encoder window follows the result's block on the batch
    and frame axes, the decoder window on the batch axis, every other input window stays at its one block, and the
    result's block index ranges over 4 × 16 × 1 × 1. -/
theorem idx_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) < 4 ∧ win0_7.index t (1 : Fin 4) < 16
    ∧ win0_7.index t (2 : Fin 4) = 0 ∧ win0_7.index t (3 : Fin 4) = 0 :=
  (by decide +kernel : ∀ t : Fin grid0.N, _)

/-- Every block (b, mi) of the result is some point's. -/
theorem idx_onto : ∀ (q0 : Fin 4) (q1 : Fin 16), ∃ t : Fin cfg0.N, win0_7.index t = ![q0.val, q1.val, 0, 0] :=
  (by decide +kernel : ∀ (q0 : Fin 4) (q1 : Fin 16), ∃ t : Fin grid0.N, win0_7.index t = ![q0.val, q1.val, 0, 0])

/-! ## The arrays the region finds -/

/-- The first half of the first-layer weights, as sliced before the launch. -/
theorem V_v0 (c : Dev nD) : (V m c main_v0 : S512x512.Idx → EReal)
    = extractStridedSlice S512x512 ![0, 0] (m ((c : Thread nD τ).loc main_arg2) : S512x1024.Idx → EReal) slices_S512x1024_S512x512_0_0 := by
  dsimp only [V, hostOps0]
  after_results

/-- The second half. -/
theorem V_v1 (c : Dev nD) : (V m c main_v1 : S512x512.Idx → EReal)
    = extractStridedSlice S512x512 ![0, 512] (m ((c : Thread nD τ).loc main_arg2) : S512x1024.Idx → EReal) slices_S512x1024_S512x512_0_512 := by
  dsimp only [V, hostOps0]
  after_results

/-! ## The blocks a point loads -/

/-- The encoder block at a point whose result block is (b, mi): frames mi·16 … mi·16 + 15 of batch element b. -/
theorem blk0_apply (c : Dev nD) (t : Fin cfg0.N) (b : Fin 4) (mi : Fin 16)
    (hb : win0_7.index t (0 : Fin 4) = b.val) (hm : win0_7.index t (1 : Fin 4) = mi.val) (p : Fin 16) (j : Fin 512) :
    (iblk m c 0 t : Vec Ideal S1x16x512 .f32) (ix3 (0 : Fin 1) p j)
      = (m ((c : Thread nD τ).loc main_arg0) : S4x256x512.Idx → EReal) (ix3 b (frame mi p) j) := by
  obtain ⟨e0, e1, e2, -⟩ := idx_facts t
  unfold iblk
  rw [View.read_apply]
  show V m c main_arg0 _ = _
  rw [V_main_arg0]
  refine congrArg _ ?_
  funext a; apply Fin.ext
  match a with
  | ⟨0, _⟩ => show win0_0.index t (0 : Fin 3) * 1 + 1 * 0 = b.val; omega
  | ⟨1, _⟩ => show win0_0.index t (1 : Fin 3) * 16 + 1 * p.val = mi.val * 16 + p.val; omega
  | ⟨2, _⟩ => show win0_0.index t (2 : Fin 3) * 512 + 1 * j.val = j.val; omega

/-- The decoder block at a point whose result block is on batch element b: all 64 tokens of b. -/
theorem blk1_apply (c : Dev nD) (t : Fin cfg0.N) (b : Fin 4)
    (hb : win0_7.index t (0 : Fin 4) = b.val) (n : Fin 64) (j : Fin 512) :
    (iblk m c 1 t : Vec Ideal S1x64x512 .f32) (ix3 (0 : Fin 1) n j)
      = (m ((c : Thread nD τ).loc main_arg1) : S4x64x512.Idx → EReal) (ix3 b n j) := by
  obtain ⟨-, -, -, e0, e1, e2, -⟩ := idx_facts t
  unfold iblk
  rw [View.read_apply]
  show V m c main_arg1 _ = _
  rw [V_main_arg1]
  refine congrArg _ ?_
  funext a; apply Fin.ext
  match a with
  | ⟨0, _⟩ => show win0_1.index t (0 : Fin 3) * 1 + 1 * 0 = b.val; omega
  | ⟨1, _⟩ => show win0_1.index t (1 : Fin 3) * 64 + 1 * n.val = n.val; omega
  | ⟨2, _⟩ => show win0_1.index t (2 : Fin 3) * 512 + 1 * j.val = j.val; omega

/-- The first weight block: the first 512 columns of the first-layer weights. -/
theorem blk2_apply (c : Dev nD) (t : Fin cfg0.N) (k j : Fin 512) :
    (iblk m c 2 t : Vec Ideal S512x512 .f32) (ix2 k j)
      = (m ((c : Thread nD τ).loc main_arg2) : S512x1024.Idx → EReal) (ix2 k (lo j)) := by
  obtain ⟨-, -, -, -, -, -, e0, e1, -⟩ := idx_facts t
  unfold iblk
  rw [View.read_apply]
  show V m c main_v0 _ = _
  rw [V_v0]
  refine extractStridedSlice_apply ![0, 0] _ _ _ (ix2 k (lo j)) fun a => ?_
  match a with
  | ⟨0, _⟩ => show k.val = 0 + (win0_2.index t (0 : Fin 2) * 512 + 1 * k.val); omega
  | ⟨1, _⟩ => show j.val = 0 + (win0_2.index t (1 : Fin 2) * 512 + 1 * j.val); omega

/-- The second weight block: the last 512 columns of the first-layer weights. -/
theorem blk3_apply (c : Dev nD) (t : Fin cfg0.N) (k j : Fin 512) :
    (iblk m c 3 t : Vec Ideal S512x512 .f32) (ix2 k j)
      = (m ((c : Thread nD τ).loc main_arg2) : S512x1024.Idx → EReal) (ix2 k (hi j)) := by
  obtain ⟨-, -, -, -, -, -, -, -, e0, e1, -⟩ := idx_facts t
  unfold iblk
  rw [View.read_apply]
  show V m c main_v1 _ = _
  rw [V_v1]
  refine extractStridedSlice_apply ![0, 512] _ _ _ (ix2 k (hi j)) fun a => ?_
  match a with
  | ⟨0, _⟩ => show k.val = 0 + (win0_3.index t (0 : Fin 2) * 512 + 1 * k.val); omega
  | ⟨1, _⟩ => show 512 + j.val = 512 + (win0_3.index t (1 : Fin 2) * 512 + 1 * j.val); omega

/-- The first bias, whole. -/
theorem blk4_apply (c : Dev nD) (t : Fin cfg0.N) (k : Fin 512) :
    (iblk m c 4 t : Vec Ideal S512 .f32) (ix1 k) = (m ((c : Thread nD τ).loc main_arg3) : S512.Idx → EReal) (ix1 k) := by
  obtain ⟨-, -, -, -, -, -, -, -, -, -, e0, -⟩ := idx_facts t
  unfold iblk
  rw [View.read_apply]
  show V m c main_arg3 _ = _
  rw [V_main_arg3]
  refine congrArg _ ?_
  funext a; apply Fin.ext
  match a with
  | ⟨0, _⟩ => show win0_4.index t (0 : Fin 1) * 512 + 1 * k.val = k.val; omega

/-- The second-layer weights, whole. -/
theorem blk5_apply (c : Dev nD) (t : Fin cfg0.N) (cc : Fin 1024) (k : Fin 512) :
    (iblk m c 5 t : Vec Ideal S1024x512 .f32) (ix2 cc k) = (m ((c : Thread nD τ).loc main_arg4) : S1024x512.Idx → EReal) (ix2 cc k) := by
  obtain ⟨-, -, -, -, -, -, -, -, -, -, -, e0, e1, -⟩ := idx_facts t
  unfold iblk
  rw [View.read_apply]
  show V m c main_arg4 _ = _
  rw [V_main_arg4]
  refine congrArg _ ?_
  funext a; apply Fin.ext
  match a with
  | ⟨0, _⟩ => show win0_5.index t (0 : Fin 2) * 1024 + 1 * cc.val = cc.val; omega
  | ⟨1, _⟩ => show win0_5.index t (1 : Fin 2) * 512 + 1 * k.val = k.val; omega

/-- The second bias, whole. -/
theorem blk6_apply (c : Dev nD) (t : Fin cfg0.N) (cc : Fin 1024) :
    (iblk m c 6 t : Vec Ideal S1024 .f32) (ix1 cc) = (m ((c : Thread nD τ).loc main_arg5) : S1024.Idx → EReal) (ix1 cc) := by
  obtain ⟨-, -, -, -, -, -, -, -, -, -, -, -, -, e0, -⟩ := idx_facts t
  unfold iblk
  rw [View.read_apply]
  show V m c main_arg5 _ = _
  rw [V_main_arg5]
  refine congrArg _ ?_
  funext a; apply Fin.ext
  match a with
  | ⟨0, _⟩ => show win0_6.index t (0 : Fin 1) * 1024 + 1 * cc.val = cc.val; omega

/-! ## What a point writes back, and the whole array -/

/-- What point t writes back is its block of `G` of the arguments. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [flushed7]
  obtain ⟨-, -, -, -, -, -, -, -, -, -, -, -, -, -, hb, hm, e2, e3⟩ := idx_facts t
  refine funext fun (y : S1x16x64x1024.Idx) => ?_
  obtain ⟨u, p, n, cc, rfl⟩ : ∃ (u : Fin 1) (p : Fin 16) (n : Fin 64) (cc : Fin 1024), y = ix4 u p n cc :=
    ⟨y 0, y 1, y 2, y 3, eq_ix4 y⟩
  show out0_7 (iblk m c 0 t) (iblk m c 1 t) (iblk m c 2 t) (iblk m c 3 t) (iblk m c 4 t) (iblk m c 5 t) (iblk m c 6 t) (ix4 u p n cc)
    = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 7).blk t).view.emb (ix4 u p n cc))
  unfold out0_7
  rw [canon7_eq]
  simp only [View.ld_unit_zero (S := S1x16x512) hz3, View.ld_unit_zero (S := S1x64x512) hz3, View.ld_unit_zero (S := S512x512) hz2,
    View.ld_unit_zero (S := S512) hz1, View.ld_unit_zero (S := S1024x512) hz2, View.ld_unit_zero (S := S1024) hz1]
  have hemb : ((cfg0.win 7).blk t).view.emb (ix4 u p n cc)
      = ix4 (⟨win0_7.index t (0 : Fin 4), hb⟩ : Fin 4) (frame ⟨win0_7.index t (1 : Fin 4), hm⟩ p) n cc := by
    funext a; apply Fin.ext
    have hu : u.val = 0 := by omega
    match a with
    | ⟨0, _⟩ => show win0_7.index t (0 : Fin 4) * 1 + 1 * u.val = win0_7.index t (0 : Fin 4); omega
    | ⟨1, _⟩ => show win0_7.index t (1 : Fin 4) * 16 + 1 * p.val = win0_7.index t (1 : Fin 4) * 16 + p.val; omega
    | ⟨2, _⟩ => show win0_7.index t (2 : Fin 4) * 64 + 1 * n.val = n.val; omega
    | ⟨3, _⟩ => show win0_7.index t (3 : Fin 4) * 1024 + 1 * cc.val = cc.val; omega
  rw [hemb]
  exact tile_eq (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨win0_7.index t (0 : Fin 4), hb⟩ ⟨win0_7.index t (1 : Fin 4), hm⟩
    (blk0_apply m c t _ _ rfl rfl) (blk1_apply m c t _ rfl) (blk2_apply m c t) (blk3_apply m c t) (blk4_apply m c t) (blk5_apply m c t) (blk6_apply m c t)
    u p n cc

/-- An index of the result is in point t's block iff each coordinate is in the block's range on its axis. -/
theorem mem_blk7 (t : Fin cfg0.N) (i : S4x256x64x1024.Idx) :
    i ∈ ((cfg0.win 7).blk t).view.set ↔ ∀ a : Fin 4, win0_7.index t a * S1x16x64x1024.size a ≤ (i a).val ∧ (i a).val < win0_7.index t a * S1x16x64x1024.size a + S1x16x64x1024.size a := by
  show i ∈ ((View.whole main_v2).slice (win0_7.rect t)).set ↔ _
  rw [View.set_slice_whole, Rect.mem_set_unit]
  exact Iff.rfl

/-- The blocks tile the result: the entry (b, fr, n, c) is in the block of the point whose result block is (b, fr / 16). -/
theorem cover (i : S4x256x64x1024.Idx) : ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 64 ≤ (i 2).val ∧ (i 2).val < win0_7.index t (2 : Fin 4) * 64 + 64; omega
  | ⟨3, _⟩ => show win0_7.index t (3 : Fin 4) * 1024 ≤ (i 3).val ∧ (i 3).val < win0_7.index t (3 : Fin 4) * 1024 + 1024; omega

/-- The result array after the run is `G` of the arguments. -/
theorem final (c : Dev nD) : (dats m 0 c).arrAt 7 cfg0.N = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.KernelIdeal.JointArray

end
-- ==== Proof.LibTypedRef.lean ====
/-
  Round trips through a typed reference.

  A typed reference to a tensor value's buffer carries a proof that the buffer's type is the value's type, and a
  called function's operations move contents between the two types along that proof: to the buffer's type when they
  write, back to the value's type when they read. The two moves are inverse to each other, whatever the reference and
  whatever the contents, because along the proof the two types are one type. Stated for ANY typed reference and proved
  by substituting the proof away, so that a term read back through such operations is freed of its round trips by
  rewriting, one pair at a time — each step checked on its own small equation, never by comparing the two whole terms.
-/
import Idealize.ShloMosaic.Lib.StableHlo

namespace Cert.LibTypedRef

open Idealize.ShloMosaic Idealize.ShloMosaic.StableHlo

variable {sig : RefSig} {Val : EltTy → Type} {T : BufTy}

/-- Contents moved to the buffer's own type and back are unchanged. -/
theorem ofBuf_toBuf (x : TRef sig T) (v : T.Contents Val) : x.ofBuf (x.toBuf v) = v := by
  obtain ⟨ref, ty_eq, h1, h2⟩ := x
  subst ty_eq
  rfl

/-- Contents moved to the value's type and back are unchanged. -/
theorem toBuf_ofBuf (x : TRef sig T) (v : x.ref.ty.Contents Val) : x.toBuf (x.ofBuf v) = v := by
  obtain ⟨ref, ty_eq, h1, h2⟩ := x
  subst ty_eq
  rfl

end Cert.LibTypedRef
-- ==== Proof.LibMaxReduce4.lean ====
/-
  The host's maximum reduction over the LAST axis of a rank-4 array `[a, b, c, n]`, read at an index, at the ideal values.

  On the extended reals the host's one-operand reduce with a maximum body, from an initial value, is at `(p, q, r)` the
  running maximum of the `n` entries `x (p, q, r, k)` from that initial value: a fold of `max` over the reduced axis's
  coordinate, whose order does not matter. (The same reading of a matrix's two axes is in `LibMaxReduce`, whose
  `foldMax` this uses.)
-/
import Idealize.ShloMosaic.Lib.ValueIdx
import Idealize.ShloMosaic.PureOps.Ideal.Laws
import proofs.«142661_j73280732004784_1_alg».proof.Proof.LibMaxReduce

noncomputable section

namespace Cert.LibMaxReduce4

open Idealize.ShloMosaic Idealize.ShloMosaic.ValueIdx Cert.LibMaxReduce

/-- The host's one-operand reduce with a maximum body over the LAST axis of an `[a, b, c, n]` array, read at
    `(p, q, r)`: the running maximum of the entries `x (p, q, r, k)` from the initial value's element. -/
theorem hostReduce_maximumf_lastAxis4_apply {a b c n : ℕ} {u : Shape} (x : (⟨4, ![a, b, c, n]⟩ : Shape).Idx → EReal)
    (init : u.Idx → EReal) (h' : (⟨4, ![a, b, c, n]⟩ : Shape).ReducesTo [3] ⟨3, ![a, b, c]⟩)
    (h : (⟨4, ![a, b, c, n]⟩ : Shape).Reduces [3] ⟨3, ![a, b, c]⟩) (hu : 0 < u.numel) (p : Fin a) (q : Fin b) (r : Fin c) :
    Host.reduce (FloatOps.maximumf (F := Ideal) (φ := .f32)) x init h' hu (ix3 p q r)
      = foldMax (init (Shape.Idx.first hu)) (fun k : Fin n => x (ix4 p q r k)) := by
  refine (Host.reduce_eq_fold_single (FloatOps.maximumf (F := Ideal) (φ := .f32)) x init h' h hu (ix3 p q r)).trans ?_
  unfold foldMax
  refine congrArg (fun f : Fin n → EReal => Finset.fold max (init (Shape.Idx.first hu)) f Finset.univ)
    (funext fun k => congrArg x ?_)
  funext ax; apply Fin.ext
  match ax with
  | ⟨0, _⟩ => rfl
  | ⟨1, _⟩ => rfl
  | ⟨2, _⟩ => rfl
  | ⟨3, _⟩ => rfl

end Cert.LibMaxReduce4

end
-- ==== Proof.RefIsG.lean ====
/-
  The reference computes the joint network's function.

  Read one operation at a time, the reference projects the encoder and the decoder features through the two halves of
  the first-layer weights (two contractions over the feature axis), spreads the two projections and the bias over the
  [4, 256, 64, 512] box of (batch, frame, token, unit), adds them, applies tanh, contracts with the second-layer
  weights, adds the second bias, and takes the log-softmax over the classes: the maximum of each row from -∞ (joined
  once more with -∞, which changes nothing), the logits below it, their exponentials summed from 0, the logarithm of that
  sum subtracted. Entry by entry that is `JointSpec.G` of the six arguments.
-/
import proofs.«142661_j73280732004784_1_alg».proof.Proof.RefRead
import proofs.«142661_j73280732004784_1_alg».proof.Proof.LibMaxReduce4
import proofs.«142661_j73280732004784_1_alg».proof.Proof.JointSpec
import Idealize.ShloMosaic.Lib.ValueIdx
import Idealize.ShloMosaic.PureOps.Ideal.Laws

noncomputable section

namespace Cert.ReferenceIdeal.RefJoint

open Cert.ReferenceIdeal Cert.ReferenceIdeal.Gen Cert.ReferenceIdeal.ReadP Idealize.ShloMosaic Idealize.ShloMosaic.ValueIdx
open Cert.LibMaxReduce Cert.LibMaxReduce4 Cert.JointRow Cert.JointSpec

variable (x0 : (⟨S4x256x512, .f32⟩ : BufTy).Contents (Elt Ideal)) (x1 : (⟨S4x64x512, .f32⟩ : BufTy).Contents (Elt Ideal))
  (x2 : (⟨S512x1024, .f32⟩ : BufTy).Contents (Elt Ideal)) (x3 : (⟨S512, .f32⟩ : BufTy).Contents (Elt Ideal))
  (x4 : (⟨S1024x512, .f32⟩ : BufTy).Contents (Elt Ideal)) (x5 : (⟨S1024, .f32⟩ : BufTy).Contents (Elt Ideal))

/-- The encoder projection of frame (b, m), unit k. -/
theorem projE_ref (b : Fin 4) (m : Fin 256) (k : Fin 512) :
    val_main_v1 (F := Ideal) x0 x2 (ix3 b m k) = ∑ j : Fin 512, x0 (ix3 b m j) * x2 (ix2 k (lo j)) := by
  rw [val_main_v1_apply]
  refine Finset.sum_congr rfl fun j _ => ?_
  rw [val_main_v0_apply]
  refine congrArg₂ (· * ·) (congrArg x0 ?_) (congrArg x2 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The decoder projection of token (b, n), unit k. -/
theorem projD_ref (b : Fin 4) (n : Fin 64) (k : Fin 512) :
    val_main_v3 (F := Ideal) x1 x2 (ix3 b n k) = ∑ j : Fin 512, x1 (ix3 b n j) * x2 (ix2 k (hi j)) := by
  rw [val_main_v3_apply]
  refine Finset.sum_congr rfl fun j _ => ?_
  rw [val_main_v2_apply]
  refine congrArg₂ (· * ·) (congrArg x1 ?_) (congrArg x2 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- The hidden unit k of (b, m, n). -/
theorem hidden_ref (b : Fin 4) (m : Fin 256) (n : Fin 64) (k : Fin 512) :
    val_main_v12 (F := Ideal) x0 x1 x2 x3 (ix4 b m n k)
      = Ideal.tanh (((∑ j : Fin 512, x0 (ix3 b m j) * x2 (ix2 k (lo j))) + ∑ j : Fin 512, x1 (ix3 b n j) * x2 (ix2 k (hi j))) + x3 (ix1 k)) := by
  rw [val_main_v12_apply, val_main_v11_apply, val_main_v8_apply, val_main_v6_apply, val_main_v4_apply, val_main_v7_apply,
    val_main_v5_apply, val_main_v10_apply, val_main_v9_apply]
  have e1 : idx_main_v4 (idx_main_v6 (ix4 b m n k)) = ix3 b m k := by
    funext a; apply Fin.ext
    match a with
    | ⟨0, _⟩ => rfl
    | ⟨1, _⟩ => rfl
    | ⟨2, _⟩ => rfl
  have e2 : idx_main_v5 (idx_main_v7 (ix4 b m n k)) = ix3 b n k := by
    funext a; apply Fin.ext
    match a with
    | ⟨0, _⟩ => rfl
    | ⟨1, _⟩ => rfl
    | ⟨2, _⟩ => rfl
  have e3 : idx_main_v9 (idx_main_v10 (ix4 b m n k)) = ix1 k := by
    funext a; apply Fin.ext
    match a with
    | ⟨0, _⟩ => rfl
  rw [e1, e2, e3, projE_ref, projD_ref]
  rfl

/-- The logit of class c at (b, m, n). -/
theorem logits_ref (b : Fin 4) (m : Fin 256) (n : Fin 64) (c : Fin 1024) :
    val_main_v16 (F := Ideal) x0 x1 x2 x3 x4 x5 (ix4 b m n c)
      = logit (fun j => x0 (ix3 b m j)) (fun j => x1 (ix3 b n j)) (fun k j => x2 (ix2 k (lo j))) (fun k j => x2 (ix2 k (hi j)))
          (fun k => x3 (ix1 k)) (fun c k => x4 (ix2 c k)) (fun c => x5 (ix1 c)) c := by
  rw [val_main_v16_apply, val_main_v13_apply, val_main_v15_apply, val_main_v14_apply]
  unfold logit
  refine congrArg₂ (· + ·) (Finset.sum_congr rfl fun k _ => congrArg₂ (· * ·) ?_ (congrArg x4 ?_)) (congrArg x5 ?_)
  · have e : lidx_main_v13 (ix4 b m n c) k = ix4 b m n k := by
      funext a; apply Fin.ext
      match a with
      | ⟨0, _⟩ => rfl
      | ⟨1, _⟩ => rfl
      | ⟨2, _⟩ => rfl
      | ⟨3, _⟩ => rfl
    rw [e]
    exact hidden_ref x0 x1 x2 x3 b m n k
  · funext a; apply Fin.ext
    match a with
    | ⟨0, _⟩ => rfl
    | ⟨1, _⟩ => rfl
  · funext a; apply Fin.ext
    match a with
    | ⟨0, _⟩ => rfl

/-- The row maximum at (b, m, n): joining -∞ in once more changes nothing. -/
theorem rowMax_ref (b : Fin 4) (m : Fin 256) (n : Fin 64) :
    val_main_call0_v2 (F := Ideal) x0 x1 x2 x3 x4 x5 (ix3 b m n)
      = foldMax (Ideal.ofBits .f32 0xFF800000#32)
          (logit (fun j => x0 (ix3 b m j)) (fun j => x1 (ix3 b n j)) (fun k j => x2 (ix2 k (lo j))) (fun k j => x2 (ix2 k (hi j)))
            (fun k => x3 (ix1 k)) (fun c k => x4 (ix2 c k)) (fun c => x5 (ix1 c))) := by
  rw [val_main_call0_v2_apply, val_main_call0_v1_apply, val_main_call0_cst_0_apply]
  unfold val_main_call0_v0
  rw [hostReduce_maximumf_lastAxis4_apply (val_main_v16 (F := Ideal) x0 x1 x2 x3 x4 x5) (val_main_call0_cst (F := Ideal))
    reducesTo_S4x256x64x1024_S4x256x64_d3 (by decide) h_S_ b m n]
  rw [val_main_call0_cst_apply]
  show max (Ideal.ofBits .f32 0xFF800000#32) (foldMax (Ideal.ofBits .f32 0xFF800000#32) _) = _
  rw [max_foldMax]
  exact congrArg (foldMax (Ideal.ofBits .f32 0xFF800000#32)) (funext fun c => logits_ref x0 x1 x2 x3 x4 x5 b m n c)

/-- The logit below its row's maximum. -/
theorem below_ref (b : Fin 4) (m : Fin 256) (n : Fin 64) (c : Fin 1024) :
    val_main_call0_v5 (F := Ideal) x0 x1 x2 x3 x4 x5 (ix4 b m n c)
      = below (logit (fun j => x0 (ix3 b m j)) (fun j => x1 (ix3 b n j)) (fun k j => x2 (ix2 k (lo j))) (fun k j => x2 (ix2 k (hi j)))
          (fun k => x3 (ix1 k)) (fun c k => x4 (ix2 c k)) (fun c => x5 (ix1 c))) c := by
  rw [val_main_call0_v5_apply, val_main_call0_v4_apply, val_main_call0_v3_apply]
  have e : idx_main_call0_v3 (idx_main_call0_v4 (ix4 b m n c)) = ix3 b m n := by
    funext a; apply Fin.ext
    match a with
    | ⟨0, _⟩ => rfl
    | ⟨1, _⟩ => rfl
    | ⟨2, _⟩ => rfl
  rw [e, rowMax_ref, logits_ref]
  rfl

/-- The reference's result at (b, m, n, c). -/
theorem out_ref (b : Fin 4) (m : Fin 256) (n : Fin 64) (c : Fin 1024) :
    val_main_v17 (F := Ideal) x0 x1 x2 x3 x4 x5 (ix4 b m n c) = Gc x0 x1 x2 x3 x4 x5 b m n c := by
  rw [val_main_v17_apply, val_main_call0_v10_apply, val_main_call0_v9_apply, val_main_call0_v8_apply, val_main_call0_v7_apply,
    val_main_call0_cst_1_apply]
  have e : idx_main_call0_v8 (idx_main_call0_v10 (ix4 b m n c)) = ix3 b m n := by
    funext a; apply Fin.ext
    match a with
    | ⟨0, _⟩ => rfl
    | ⟨1, _⟩ => rfl
    | ⟨2, _⟩ => rfl
  rw [e]
  unfold Gc logSoftmax
  refine congrArg₂ (· - ·) (below_ref x0 x1 x2 x3 x4 x5 b m n c) (congrArg Ideal.log ?_)
  show Ideal.ofBits .f32 0x00000000#32 + _ = _
  rw [Ideal.ofBits_zero_f32, zero_add]
  refine Finset.sum_congr rfl fun k _ => ?_
  rw [val_main_call0_v6_apply]
  have e' : idx_main_call0_v7 (ix3 b m n) k = ix4 b m n k := by
    funext a; apply Fin.ext
    match a with
    | ⟨0, _⟩ => rfl
    | ⟨1, _⟩ => rfl
    | ⟨2, _⟩ => rfl
    | ⟨3, _⟩ => rfl
  rw [e', below_ref]
  rfl

/-- The reference's result array is the joint network's function of the arguments. -/
theorem ref_eq : val_main_v17 (F := Ideal) x0 x1 x2 x3 x4 x5 = G x0 x1 x2 x3 x4 x5 := by
  funext i
  obtain ⟨b, m, n, c, rfl⟩ : ∃ (b : Fin 4) (m : Fin 256) (n : Fin 64) (c : Fin 1024), i = ix4 b m n c :=
    ⟨i 0, i 1, i 2, i 3, eq_ix4 i⟩
  exact out_ref x0 x1 x2 x3 x4 x5 b m n c

end Cert.ReferenceIdeal.RefJoint

end
-- ==== Proof.lean ====
/-
  The joint network kernel against its reference: the claims.

  The kernel computes, for every batch element b, frame m and token n, the log-softmax over 1024 classes of
      logit_c = Σ_k tanh ((Σ_j enc[b, m, j] · W1[k, j] + Σ_j dec[b, n, j] · W1[k, 512 + j]) + b1[k]) · W2[c, k] + b2[c],
  a tile of 16 frames at a time, with every matrix product on the matrix unit in bf16 with f32 accumulation. The
  reference computes the same expression with three einsum contractions over whole arrays and jax's log_softmax. On the
  extended reals a change of float format is the identity and a matrix-unit product into a zero accumulator is the
  plain sum of products, so both programs compute ONE function of the six arguments, entry by entry (`JointSpec.G`):
  the same operations in the same grouping, differing only in the order of commutative folds and in the reference
  joining -∞ into the row maximum once more. No law that needs finiteness is used, so the precondition is not opened.

  • The kernel's value: the body's block as the row function (`KernelBlock`, `KernelTile`), the blocks a grid point
    loads as rows of the arguments and the 64 blocks tiling the result (`KernelArray`).
  • The reference's value: its operations read one at a time (`RefIsG`).
  • The three frames are the programs' runs with the result forgotten; nothing was rewritten on the way to the
    idealized kernel, so `preserves` holds trivially.
-/
import proofs.«142661_j73280732004784_1_alg».proof.Defs
import proofs.«142661_j73280732004784_1_alg».proof.Proof.Gen.Kernel
import proofs.«142661_j73280732004784_1_alg».proof.Proof.Gen.Kernel.Skeleton
import proofs.«142661_j73280732004784_1_alg».proof.Proof.Gen.Kernel.Launch
import proofs.«142661_j73280732004784_1_alg».proof.Proof.Gen.Kernel.Points
import proofs.«142661_j73280732004784_1_alg».proof.Proof.Gen.Kernel.Frame
import proofs.«142661_j73280732004784_1_alg».proof.Proof.Gen.KernelIdeal
import proofs.«142661_j73280732004784_1_alg».proof.Proof.Gen.KernelIdeal.Skeleton
import proofs.«142661_j73280732004784_1_alg».proof.Proof.Gen.KernelIdeal.Launch
import proofs.«142661_j73280732004784_1_alg».proof.Proof.Gen.KernelIdeal.Points
import proofs.«142661_j73280732004784_1_alg».proof.Proof.Gen.KernelIdeal.Frame
import proofs.«142661_j73280732004784_1_alg».proof.Proof.Gen.ReferenceIdeal
import proofs.«142661_j73280732004784_1_alg».proof.Proof.Gen.Pre_finite_inputs
import proofs.«142661_j73280732004784_1_alg».proof.Proof.KernelArray
import proofs.«142661_j73280732004784_1_alg».proof.Proof.RefIsG
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten between the kernel and its idealization. -/
theorem preserves : Cert.preserves_Kernel_KernelIdeal := trivial

/-- On the extended reals the kernel's result array and the reference's are the same function `G` of arguments that agree. -/
theorem algebraic : Cert.algebraic_KernelIdeal_ReferenceIdeal := by
  intro m ρ m' ρ' _ hagree
  refine ⟨fun c => Cert.JointSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.JointArray.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, Cert.ReferenceIdeal.RefJoint.ref_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
